-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x1 : Shape := ⟨2, ![50000, 1]⟩
abbrev S256x96 : Shape := ⟨2, ![256, 96]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S256x96 : S_.BroadcastsInDim S256x96 (![] : Fin 0 → Fin S256x96.rank)
  reducesTo_S256x96_S_d0_1 : S256x96.ReducesTo [0, 1] S_

variable [Facts]

def fn {F : FTy → Type} [FloatOps F] (main_arg0 : FVec F S50000x256 .f32) (main_arg1 : FVec F S50000x1 .f32) (main_arg2 : FVec F S256x96 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S256x96 .f32 := Host.absf main_arg2
  let main_cst_2 : FVec F S_ .f32 := constant S_ .f32 0x7F800000#32
  let main_v10 : FVec F S256x96 .f32 := broadcastInDim S256x96 ![] bcast_S_S256x96 main_cst_2
  let main_v11 : IVec S256x96 1 := cmpf .olt main_v9 main_v10
  let main_c_3 : IVec S_ 1 := constantI S_ 1 1#1
  let main_v12 : IVec S_ 1 := (fun x v => Host.reduce IntOp.andi x v reducesTo_S256x96_S_d0_1 h_S_) main_v11 main_c_3
  let main_v13 : IVec S_ 1 := andi main_v8 main_v12
  main_v13
-- ==== Kernel.lean ====
abbrev S50000x256 : Shape := ⟨2, ![50000, 256]⟩
abbrev S50000x1 : Shape := ⟨2, ![50000, 1]⟩
abbrev S256x96 : Shape := ⟨2, ![256, 96]⟩
abbrev S800000 : Shape := ⟨1, ![800000]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩
abbrev S5000x256 : Shape := ⟨2, ![5000, 256]⟩
abbrev S5000x1 : Shape := ⟨2, ![5000, 1]⟩
abbrev S5000x96 : Shape := ⟨2, ![5000, 96]⟩

abbrev nBuf : Space → Nat
  | .hbm => 20
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x96, .f32⟩
  | .hbm, ⟨3, _⟩ => ⟨S800000, .i32⟩
  | .hbm, ⟨4, _⟩ => ⟨S800000, .i32⟩
  | .hbm, ⟨5, _⟩ => ⟨S50000x96, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x96, .f32⟩
  | .hbm, ⟨15, _⟩ => ⟨S_, .f32⟩
  | .hbm, ⟨16, _⟩ => ⟨S50000x96, .f32⟩
  | .hbm, ⟨17, _⟩ => ⟨S800000x1, .i32⟩
  | .hbm, ⟨18, _⟩ => ⟨S50000x96, .f32⟩
  | .hbm, ⟨19, _⟩ => ⟨S50000x96, .f32⟩
  | .local _ .vmem, ⟨0, _⟩ => ⟨S5000x256, .f32⟩
  | .local _ .vmem, ⟨1, _⟩ => ⟨S5000x256, .f32⟩
  | .local _ .vmem, ⟨2, _⟩ => ⟨S256x96, .f32⟩
  | .local _ .vmem, ⟨3, _⟩ => ⟨S5000x1, .f32⟩
  | .local _ .vmem, ⟨4, _⟩ => ⟨S5000x1, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S5000x96, .f32⟩
  | .local _ .vmem, ⟨12, _⟩ => ⟨S5000x96, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  inb_S5000x1_S5000x1_0_0 : ∀ a, (![0, 0] : Fin 2 → Nat) a + S5000x1.size a ≤ S5000x1.size a
  h_S5000x1 : 0 < S5000x1.numel
  broadcasts_S5000x1_S5000x96 : S5000x1.Broadcasts S5000x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x256_S256x96_S5000x96_1_0_0_1_n_n_wf : DotDims.WF S5000x256 S256x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x256_S256x96_S5000x96_1_0_0_1_n_n : DotDims S5000x256 S256x96 S5000x96 where
  lhsContracting := [1]
  rhsContracting := [0]
  lhsNonContracting := [0]
  rhsNonContracting := [1]
  lhsBatch := []
  rhsBatch := []
  wf := dot_S5000x256_S256x96_S5000x96_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v10) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000x1 : Shape := ⟨2, ![50000, 1]⟩
abbrev S256x96 : Shape := ⟨2, ![256, 96]⟩
abbrev S800000 : Shape := ⟨1, ![800000]⟩
abbrev S50000x96 : Shape := ⟨2, ![50000, 96]⟩
abbrev S_ : Shape := ⟨0, ![]⟩
abbrev S800000x1 : Shape := ⟨2, ![800000, 1]⟩
abbrev S800000x96 : Shape := ⟨2, ![800000, 96]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x96, .f32⟩
  | .hbm, ⟨3, _⟩ => ⟨S800000, .i32⟩
  | .hbm, ⟨4, _⟩ => ⟨S800000, .i32⟩
  | .hbm, ⟨5, _⟩ => ⟨S50000x96, .f32⟩
  | .hbm, ⟨6, _⟩ => ⟨S50000x96, .f32⟩
  | .hbm, ⟨7, _⟩ => ⟨S50000x96, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x96, .f32⟩
  | .hbm, ⟨17, _⟩ => ⟨S_, .f32⟩
  | .hbm, ⟨18, _⟩ => ⟨S50000x96, .f32⟩
  | .hbm, ⟨19, _⟩ => ⟨S800000x1, .i32⟩
  | .hbm, ⟨20, _⟩ => ⟨S50000x96, .f32⟩
  | .hbm, ⟨21, _⟩ => ⟨S50000x96, .f32⟩
  | .hbm, ⟨22, _⟩ => ⟨S50000x96, .f32⟩
  | .hbm, ⟨23, _⟩ => ⟨S_, .f32⟩
  | .hbm, ⟨24, _⟩ => ⟨S50000x96, .f32⟩
  | .hbm, ⟨25, _⟩ => ⟨S50000x96, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S50000x1_S50000x96_0_1 : S50000x1.BroadcastsInDim S50000x96 (![0, 1] : Fin 2 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  dot_S50000x256_S256x96_S50000x96_1_0_0_1_n_n_wf : DotDims.WF S50000x256 S256x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KernelRun.lean ====
/-
  The idealized kernel's run with its result array named.  The program is two tiled regions with a stretch of
  host operations between them; its run leaves every unscoped buffer at the contents the fold through the three
  segments gives it.  Read at the result buffer, that is the array the second region's write-backs leave; read at
  an argument, the launch contents.
-/
import proofs.«108789_j36275293782548_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the array the second
    region's write-backs leave, started from the contents the host stretch computed, and the five arguments end
    as launched. -/
theorem run_named : θ_run defs (onTc (τ := τ) (main (F := F))) ⟨m, fun _ => 0, ρ⟩ (fun r => ∀ c : Dev nD,
      r.2.mem ((c.tc : Thread nD τ).loc main_v0) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Val

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.HwBlock.lean ====
/-
  One tile of the projection stage, read at an entry.  The body multiplies a [5000, 256] tile of the features by
  the whole [256, 96] weight matrix into a zero accumulator (the narrowing of both operands to bf16 is the
  identity on the extended reals) and scales row p of the product by the tile's p-th normaliser: entry (p, q) is
  (Σ_k x(p, k) · w(k, q)) · n(p, 0).
-/
import proofs.«108789_j36275293782548_1_alg».proof.Proof.Gen.KernelIdeal.Skeleton
import proofs.«108789_j36275293782548_1_alg».proof.Proof.LibKeepdims
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-- The tile product's dimension numbers: rows × contraction times contraction × columns. -/
abbrev tileDot : DotDims S5000x256 S256x96 S5000x96 := dot_S5000x256_S256x96_S5000x96_1_0_0_1_n_n

/-- The left operand's index at output (p, q) and contraction index k is (p, k) … -/
theorem tile_lhs0 (i : S5000x96.Idx) (q : tileDot.contr.Idx) : (tileDot.lhsIdx i q 0).val = (i 0).val := by
  unfold DotDims.lhsIdx
  rw [dif_neg (show ¬(0 : Fin S5000x256.rank) ∈ tileDot.lhsBatch by decide),
    dif_pos (show (0 : Fin S5000x256.rank) ∈ tileDot.lhsNonContracting by decide)]
  rfl
theorem tile_lhs1 (i : S5000x96.Idx) (q : tileDot.contr.Idx) : (tileDot.lhsIdx i q 1).val = (q ⟨0, by decide⟩).val :=
  tileDot.lhsIdx_val_of_single rfl i q
/-- … and the right operand's is (k, q). -/
theorem tile_rhs0 (i : S5000x96.Idx) (q : tileDot.contr.Idx) : (tileDot.rhsIdx i q 0).val = (q ⟨0, by decide⟩).val :=
  tileDot.rhsIdx_val_of_single rfl i q
theorem tile_rhs1 (i : S5000x96.Idx) (q : tileDot.contr.Idx) : (tileDot.rhsIdx i q 1).val = (i 1).val := by
  unfold DotDims.rhsIdx
  rw [dif_neg (show ¬(1 : Fin S256x96.rank) ∈ tileDot.rhsBatch by decide),
    dif_pos (show (1 : Fin S256x96.rank) ∈ tileDot.rhsNonContracting by decide)]
  rfl

/-- The tile product into the zero splat, at (p, q): the sum over the 256 contraction coordinates. -/
theorem tile_matmul_apply {φ₁ φ₂ : FTy} (l : FVec Ideal S5000x256 φ₁) (r : FVec Ideal S256x96 φ₂) (p : Fin 5000) (q : Fin 96) :
    matmul (F := Ideal) tileDot none l r (constant (F := Ideal) S5000x96 .f32 0x00000000#32) (ix2 p q)
      = ∑ k : Fin 256, l (ix2 p k) * r (ix2 k q) := by
  refine (Ideal.matmul_constant_zero_apply tileDot none l r (ix2 p q)).trans ?_
  rw [← Equiv.sum_comp (contrEquiv1 tileDot 256 rfl rfl).symm]
  refine Finset.sum_congr rfl fun k _ => ?_
  have hk := contrEquiv1_symm_val tileDot 256 rfl rfl k
  have el : tileDot.lhsIdx (ix2 p q) ((contrEquiv1 tileDot 256 rfl rfl).symm k) = ix2 p k := funext fun a => Fin.ext (by
    match a with
    | ⟨0, _⟩ => exact tile_lhs0 _ _
    | ⟨1, _⟩ => exact (tile_lhs1 _ _).trans hk)
  have er : tileDot.rhsIdx (ix2 p q) ((contrEquiv1 tileDot 256 rfl rfl).symm k) = ix2 k q := funext fun a => Fin.ext (by
    match a with
    | ⟨0, _⟩ => exact (tile_rhs0 _ _).trans hk
    | ⟨1, _⟩ => exact tile_rhs1 _ _)
  rw [el, er]

/-- The stored tile at (p, q): the row's product with the weights' column, scaled by the row's normaliser. -/
theorem proj_tile_apply (x : Vec Ideal S5000x256 .f32) (w : Vec Ideal S256x96 .f32) (n : Vec Ideal S5000x1 .f32)
    (p : Fin 5000) (q : Fin 96) :
    k0_pay1 (F := Ideal) x w n (ix2 p q) = (∑ k : Fin 256, x (ix2 p k) * w (ix2 k q)) * n (ix2 p (0 : Fin 1)) := by
  unfold k0_pay1
  refine (mulf_apply _ _ (ix2 p q)).trans ?_
  refine congrArg₂ (· * ·) ?_ ?_
  · exact tile_matmul_apply _ _ p q
  · exact Cert.Keepdims.broadcastTo_a1_ab_apply n _ p q

end Cert.KernelIdeal.Val

end
-- ==== Proof.Spec.lean ====
/-
  One graph-convolution layer on the extended reals, as a function of its five arrays: node features h [50000, 256],
  a per-node normaliser n [50000, 1], weights w [256, 96], and the edges' source and destination nodes [800000].
    projected   z(r, c) = (Σ_k h(r, k) · w(k, c)) · n(r, 0)
    aggregated  a = the zero array with, for every edge e, row src(e) of z (a negative source read 50000 higher,
                the row clamped into range as the host's gather clamps it) added into row dst(e)
    result      out(r, c) = max (a(r, c) · n(r, 0)) 0
  The gather and the scatter-add are kept as the host's own two operations: both programs apply them with the same
  dimension numbers to the same index arrays, so nothing here opens them.
-/
import Idealize.ShloMosaic.PureOps.Ideal
import Idealize.ShloMosaic.Lib.ValueIdx

noncomputable section

namespace Cert.Gcn

open Idealize.ShloMosaic Idealize.ShloMosaic.ValueIdx

abbrev SFeat : Shape := ⟨2, ![50000, 256]⟩
abbrev SNorm : Shape := ⟨2, ![50000, 1]⟩
abbrev SWeight : Shape := ⟨2, ![256, 96]⟩
abbrev SEdge : Shape := ⟨1, ![800000]⟩
abbrev SEdgeCol : Shape := ⟨2, ![800000, 1]⟩
abbrev SNode : Shape := ⟨2, ![50000, 96]⟩
abbrev SMsg : Shape := ⟨2, ![800000, 96]⟩
abbrev SScalar : Shape := ⟨0, ![]⟩

/-- The projected features, each row scaled by its node's normaliser. -/
def proj (h : FVec Ideal SFeat .f32) (w : FVec Ideal SWeight .f32) (n : FVec Ideal SNorm .f32) : FVec Ideal SNode .f32 :=
  fun i => (∑ k : Fin 256, h (ix2 (⟨(i 0).val, idx2_lt0 i⟩ : Fin 50000) k) * w (ix2 k (⟨(i 1).val, idx2_lt1 i⟩ : Fin 96)))
    * n (ix2 (⟨(i 0).val, idx2_lt0 i⟩ : Fin 50000) (0 : Fin 1))

theorem proj_apply (h : FVec Ideal SFeat .f32) (w : FVec Ideal SWeight .f32) (n : FVec Ideal SNorm .f32) (r : Fin 50000) (c : Fin 96) :
    proj h w n (ix2 r c) = (∑ k : Fin 256, h (ix2 r k) * w (ix2 k c)) * n (ix2 r (0 : Fin 1)) := rfl

/-- Row gather: result row e is the operand's row at the e-th start index. -/
def gatherRows : GatherDims SNode SEdgeCol SMsg where
  offsetDims := [1]
  collapsedSliceDims := [0]
  operandBatchingDims := []
  startIndicesBatchingDims := []
  startIndexMap := [0]
  indexVectorDim := 1
  sliceSizes := ![1, 96]

/-- Row scatter: update row e lands on the operand's row at the e-th index. -/
def scatterRows : ScatterDims SNode SEdgeCol SMsg where
  updateWindowDims := [1]
  insertedWindowDims := [0]
  scatterDimsToOperandDims := [0]
  indexVectorDim := 1

theorem bScalarEdge : SScalar.BroadcastsInDim SEdge (![] : Fin 0 → Fin SEdge.rank) := by decide
theorem bEdgeCol : SEdge.BroadcastsInDim SEdgeCol (![0] : Fin 1 → Fin SEdgeCol.rank) := by decide
theorem bScalarNode : SScalar.BroadcastsInDim SNode (![] : Fin 0 → Fin SNode.rank) := by decide

/-- The messages gathered along the edges' sources and summed into the edges' destinations. -/
def aggregate (z : FVec Ideal SNode .f32) (src dst : IVec SEdge 32) : FVec Ideal SNode .f32 :=
  Host.scatterAdd (F := Ideal) scatterRows
    (broadcastInDim SNode ![] bScalarNode (constant (F := Ideal) SScalar .f32 0x00000000#32))
    (broadcastInDim SEdgeCol ![0] bEdgeCol dst)
    (Host.gather gatherRows z (broadcastInDim SEdgeCol ![0] bEdgeCol
      (select (cmpi .slt src (broadcastInDim SEdge ![] bScalarEdge (constantI SScalar 32 0#32)))
        (addi src (broadcastInDim SEdge ![] bScalarEdge (constantI SScalar 32 50000#32))) src)))

/-- The aggregate scaled by the node's normaliser, negative entries cut to zero. -/
def reluScale (a : FVec Ideal SNode .f32) (n : FVec Ideal SNorm .f32) : FVec Ideal SNode .f32 :=
  fun i => max (a i * n (ix2 (⟨(i 0).val, idx2_lt0 i⟩ : Fin 50000) (0 : Fin 1))) (Ideal.ofBits .f32 0x00000000#32)

theorem reluScale_apply (a : FVec Ideal SNode .f32) (n : FVec Ideal SNorm .f32) (r : Fin 50000) (c : Fin 96) :
    reluScale a n (ix2 r c) = max (a (ix2 r c) * n (ix2 r (0 : Fin 1))) (Ideal.ofBits .f32 0x00000000#32) := rfl

/-- The whole layer. -/
def layer (h : FVec Ideal SFeat .f32) (n : FVec Ideal SNorm .f32) (w : FVec Ideal SWeight .f32) (src dst : IVec SEdge 32) :
    FVec Ideal SNode .f32 :=
  reluScale (aggregate (proj h w n) src dst) n

end Cert.Gcn

end
-- ==== Proof.Region0.lean ====
/-
  The first region's output array.  Grid point t stages rows 5000·t … 5000·t + 4999 of the features and of the
  normalisers together with the whole weight matrix, and writes back the same rows of the output; the ten row
  bands tile the 50000 rows.  So, whatever the region's buffers hold on entry, the output array ends at the
  projected, scaled features of the three input arrays.
-/
import proofs.«108789_j36275293782548_1_alg».proof.Proof.Gen.KernelIdeal.Frame
import proofs.«108789_j36275293782548_1_alg».proof.Proof.HwBlock
import proofs.«108789_j36275293782548_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The block indices at point t: the features', the normalisers' and the output's row band is t, the weights'
    block is the whole matrix, and every column block index is 0. -/
theorem bands0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt10_0 (t : Fin cfg0.N) : t.val < 10 := by
  have h := t.isLt
  have hN : cfg0.N = 10 := N_0
  omega

/-- Row p of band t. -/
def bandRow0 (t : Fin cfg0.N) (p : Fin 5000) : Fin 50000 := ⟨t.val * 5000 + p.val, by have := lt10_0 t; omega⟩

/-- The features' block at point t is rows of band t of the array. -/
theorem feat_block (c : Dev nD) (t : Fin cfg0.N) (p : Fin 5000) (k : Fin 256) :
    (iblk0 V c 0 t : Vec Ideal S5000x256 .f32) (ix2 p k) = (V c main_arg0 : Cert.Gcn.SFeat.Idx → EReal) (ix2 (bandRow0 t p) k) := by
  obtain ⟨e0, e1, -⟩ := bands0 t
  show (V c main_arg0 : Cert.Gcn.SFeat.Idx → EReal) (((cfg0.win 0).blk t).view.emb (ix2 p k)) = _
  refine congrArg (V c main_arg0 : Cert.Gcn.SFeat.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 256 + 1 * k.val = k.val; rw [e1]; omega

/-- The weights' block at every point is the whole matrix. -/
theorem weight_block (c : Dev nD) (t : Fin cfg0.N) (k : Fin 256) (q : Fin 96) :
    (iblk0 V c 1 t : Vec Ideal S256x96 .f32) (ix2 k q) = (V c main_arg2 : Cert.Gcn.SWeight.Idx → EReal) (ix2 k q) := by
  obtain ⟨-, -, e0, e1, -⟩ := bands0 t
  show (V c main_arg2 : Cert.Gcn.SWeight.Idx → EReal) (((cfg0.win 1).blk t).view.emb (ix2 k q)) = _
  refine congrArg (V c main_arg2 : Cert.Gcn.SWeight.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 96 + 1 * q.val = q.val; rw [e1]; omega

/-- The normalisers' block at point t is rows of band t of the column. -/
theorem norm_block (c : Dev nD) (t : Fin cfg0.N) (p : Fin 5000) :
    (iblk0 V c 2 t : Vec Ideal S5000x1 .f32) (ix2 p (0 : Fin 1)) = (V c main_arg1 : Cert.Gcn.SNorm.Idx → EReal) (ix2 (bandRow0 t p) (0 : Fin 1)) := by
  obtain ⟨-, -, -, -, e0, e1, -⟩ := bands0 t
  show (V c main_arg1 : Cert.Gcn.SNorm.Idx → EReal) (((cfg0.win 2).blk t).view.emb (ix2 p (0 : Fin 1))) = _
  refine congrArg (V c main_arg1 : Cert.Gcn.SNorm.Idx → EReal) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- Entry (p, q) of the output's block at point t sits at row p of band t, column q. -/
theorem out_block_emb0 (t : Fin cfg0.N) (p : Fin 5000) (q : Fin 96) :
    (((cfg0.win 3).blk t).view.emb (ix2 p q) : Cert.Gcn.SNode.Idx) = ix2 (bandRow0 t p) q := by
  obtain ⟨-, -, -, -, -, -, e0, e1⟩ := bands0 t
  refine funext fun a => Fin.ext ?_
  match a with
  | ⟨0, _⟩ => show win0_3.index t (0 : Fin 2) * 5000 + 1 * p.val = t.val * 5000 + p.val; rw [e0]; omega
  | ⟨1, _⟩ => show win0_3.index t (1 : Fin 2) * 96 + 1 * q.val = q.val; rw [e1]; omega

/-- What point t writes back is band t of the projected features of the arrays as the region finds them. -/
theorem proj_flushed (c : Dev nD) (t : Fin cfg0.N) :
    (dat0 V c).flushed 3 t = ((cfg0.win 3).blk t).view.read (Elt Ideal)
      (Cert.Gcn.proj (V c main_arg0) (V c main_arg2) (V c main_arg1)) := by
  show (cfg0.win 3).cut (grid0.coords t) ((dat0 V c).after 3 t) = _
  rw [after0_3]
  unfold out0_3
  rw [View.canon_unit_zero zeroOff]
  simp only [View.ld_unit_zero (S := S5000x256) zeroOff, View.ld_unit_zero (S := S256x96) zeroOff,
    View.ld_unit_zero (S := S5000x1) zeroOff]
  funext j
  obtain ⟨p, q, rfl⟩ : ∃ (p : Fin 5000) (q : Fin 96), j = ix2 p q := ⟨j 0, j 1, eq_ix2 j⟩
  show k0_pay1 (F := Ideal) (iblk0 V c 0 t) (iblk0 V c 1 t) (iblk0 V c 2 t) (ix2 p q)
    = Cert.Gcn.proj (V c main_arg0) (V c main_arg2) (V c main_arg1) (((cfg0.win 3).blk t).view.emb (ix2 p q))
  refine (proj_tile_apply (iblk0 V c 0 t) (iblk0 V c 1 t) (iblk0 V c 2 t) p q).trans ?_
  rw [out_block_emb0 t p q, Cert.Gcn.proj_apply, norm_block V c t p]
  refine congrArg (· * _) (Finset.sum_congr rfl fun k _ => ?_)
  rw [feat_block V c t p k, weight_block V c t k q]

/-- An index of the array is in point t's block iff each coordinate is in the block's range on its axis. -/
theorem mem_band0 (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_call0_v0).slice (win0_3.rect t)).set ↔ _
  rw [View.set_slice_whole, Rect.mem_set_unit]
  exact Iff.rfl

/-- Every row lies in one of the ten bands. -/
theorem bands_cover0 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  let t : Fin cfg0.N := ⟨(i 0).val / 5000, by rw [show cfg0.N = 10 from N_0]; omega⟩
  obtain ⟨-, -, -, -, -, -, e0, e1⟩ := bands0 t
  have ht : t.val = (i 0).val / 5000 := rfl
  refine ⟨t, flush0_3 t, ?_⟩
  rw [mem_band0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 96 ≤ (i 1).val ∧ (i 1).val < win0_3.index t (1 : Fin 2) * 96 + 96
    rw [e1]; omega

/-- THE FIRST REGION'S OUTPUT: the projected, scaled features of the arrays the region was entered with. -/
theorem proj_array (c : Dev nD) :
    (dat0 V c).arrAt 3 cfg0.N = Cert.Gcn.proj (V c main_arg0) (V c main_arg2) (V c main_arg1) :=
  (dat0 V c).arrAt_eq_of_cover 3 _ (fun t _ => proj_flushed V c t) bands_cover0

end Cert.KernelIdeal.Val

end
-- ==== Proof.ReluBlock.lean ====
/-
  One tile of the closing stage, read at an entry: the aggregate's tile times the row's normaliser, cut below
  at zero.  Entry (p, q) is max (a(p, q) · n(p, 0)) 0.
-/
import proofs.«108789_j36275293782548_1_alg».proof.Proof.Gen.KernelIdeal.Skeleton
import proofs.«108789_j36275293782548_1_alg».proof.Proof.LibKeepdims
import Idealize.ShloMosaic.Lib.ValueIdx
import Idealize.ShloMosaic.Lib.Pipeline.Value

noncomputable section

namespace Cert.KernelIdeal.Val

open Cert.KernelIdeal Cert.KernelIdeal.Gen Idealize.ShloMosaic Idealize.ShloMosaic.ValueIdx

/-- The stored tile at (p, q). -/
theorem relu_tile_apply (a : Vec Ideal S5000x96 .f32) (n : Vec Ideal S5000x1 .f32) (p : Fin 5000) (q : Fin 96) :
    k1_pay1 (F := Ideal) a n (ix2 p q) = max (a (ix2 p q) * n (ix2 p (0 : Fin 1))) (Ideal.ofBits .f32 0x00000000#32) := by
  unfold k1_pay1
  refine (maximumf_apply _ _ (ix2 p q)).trans ?_
  refine congrArg₂ max ?_ rfl
  refine (mulf_apply _ _ (ix2 p q)).trans ?_
  refine congrArg₂ (· * ·) ?_ ?_
  · exact congrFun (shapeCast_self a _) (ix2 p q)
  · exact Cert.Keepdims.broadcastTo_a1_ab_apply n _ p q

end Cert.KernelIdeal.Val

end
-- ==== Proof.Region1.lean ====
/-
  The second region's output array.  Grid point t stages rows 5000·t … 5000·t + 4999 of the aggregate and of the
  normalisers and writes back the same rows of the result; the ten row bands tile the 50000 rows.  So, whatever
  the region's buffers hold on entry, the result array ends at the scaled, cut aggregate.
-/
import proofs.«108789_j36275293782548_1_alg».proof.Proof.Gen.KernelIdeal.Frame
import proofs.«108789_j36275293782548_1_alg».proof.Proof.ReluBlock
import proofs.«108789_j36275293782548_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The block indices at point t: each window's row band is t and its column block index is 0. -/
theorem bands1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt10_1 (t : Fin cfg1.N) : t.val < 10 := by
  have h := t.isLt
  have hN : cfg1.N = 10 := N_1
  omega

/-- Row p of band t. -/
def bandRow1 (t : Fin cfg1.N) (p : Fin 5000) : Fin 50000 := ⟨t.val * 5000 + p.val, by have := lt10_1 t; omega⟩

/-- The aggregate's block at point t is rows of band t of the array. -/
theorem agg_block (c : Dev nD) (t : Fin cfg1.N) (p : Fin 5000) (q : Fin 96) :
    (iblk1 V c 0 t : Vec Ideal S5000x96 .f32) (ix2 p q) = (V c main_call0_v10 : Cert.Gcn.SNode.Idx → EReal) (ix2 (bandRow1 t p) q) := by
  obtain ⟨e0, e1, -⟩ := bands1 t
  show (V c main_call0_v10 : Cert.Gcn.SNode.Idx → EReal) (((cfg1.win 0).blk t).view.emb (ix2 p q)) = _
  refine congrArg (V c main_call0_v10 : Cert.Gcn.SNode.Idx → EReal) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 96 + 1 * q.val = q.val; rw [e1]; omega

/-- The normalisers' block at point t is rows of band t of the column. -/
theorem norm_block1 (c : Dev nD) (t : Fin cfg1.N) (p : Fin 5000) :
    (iblk1 V c 1 t : Vec Ideal S5000x1 .f32) (ix2 p (0 : Fin 1)) = (V c main_arg1 : Cert.Gcn.SNorm.Idx → EReal) (ix2 (bandRow1 t p) (0 : Fin 1)) := by
  obtain ⟨-, -, e0, e1, -⟩ := bands1 t
  show (V c main_arg1 : Cert.Gcn.SNorm.Idx → EReal) (((cfg1.win 1).blk t).view.emb (ix2 p (0 : Fin 1))) = _
  refine congrArg (V c main_arg1 : Cert.Gcn.SNorm.Idx → EReal) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- Entry (p, q) of the result's block at point t sits at row p of band t, column q. -/
theorem out_block_emb1 (t : Fin cfg1.N) (p : Fin 5000) (q : Fin 96) :
    (((cfg1.win 2).blk t).view.emb (ix2 p q) : Cert.Gcn.SNode.Idx) = ix2 (bandRow1 t p) q := by
  obtain ⟨-, -, -, -, e0, e1⟩ := bands1 t
  refine funext fun a => Fin.ext ?_
  match a with
  | ⟨0, _⟩ => show win1_2.index t (0 : Fin 2) * 5000 + 1 * p.val = t.val * 5000 + p.val; rw [e0]; omega
  | ⟨1, _⟩ => show win1_2.index t (1 : Fin 2) * 96 + 1 * q.val = q.val; rw [e1]; omega

/-- What point t writes back is band t of the scaled, cut aggregate of the arrays as the region finds them. -/
theorem relu_flushed (c : Dev nD) (t : Fin cfg1.N) :
    (dat1 V c).flushed 2 t = ((cfg1.win 2).blk t).view.read (Elt Ideal)
      (Cert.Gcn.reluScale (V c main_call0_v10) (V c main_arg1)) := by
  show (cfg1.win 2).cut (grid1.coords t) ((dat1 V c).after 2 t) = _
  rw [after1_2]
  unfold out1_2
  rw [View.canon_unit_zero zeroOff1]
  simp only [View.ld_unit_zero (S := S5000x96) zeroOff1, View.ld_unit_zero (S := S5000x1) zeroOff1]
  funext j
  obtain ⟨p, q, rfl⟩ : ∃ (p : Fin 5000) (q : Fin 96), j = ix2 p q := ⟨j 0, j 1, eq_ix2 j⟩
  show k1_pay1 (F := Ideal) (iblk1 V c 0 t) (iblk1 V c 1 t) (ix2 p q)
    = Cert.Gcn.reluScale (V c main_call0_v10) (V c main_arg1) (((cfg1.win 2).blk t).view.emb (ix2 p q))
  refine (relu_tile_apply (iblk1 V c 0 t) (iblk1 V c 1 t) p q).trans ?_
  rw [out_block_emb1 t p q, Cert.Gcn.reluScale_apply, norm_block1 V c t p, agg_block V c t p q]

/-- An index of the array is in point t's block iff each coordinate is in the block's range on its axis. -/
theorem mem_band1 (t : Fin cfg1.N) (i : S50000x96.Idx) :
    i ∈ ((cfg1.win 2).blk t).view.set ↔ ∀ a : Fin 2, win1_2.index t a * S5000x96.size a ≤ (i a).val
      ∧ (i a).val < win1_2.index t a * S5000x96.size a + S5000x96.size a := by
  show i ∈ ((View.whole main_v0).slice (win1_2.rect t)).set ↔ _
  rw [View.set_slice_whole, Rect.mem_set_unit]
  exact Iff.rfl

/-- Every row lies in one of the ten bands. -/
theorem bands_cover1 (i : S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  let t : Fin cfg1.N := ⟨(i 0).val / 5000, by rw [show cfg1.N = 10 from N_1]; omega⟩
  obtain ⟨-, -, -, -, e0, e1⟩ := bands1 t
  have ht : t.val = (i 0).val / 5000 := rfl
  refine ⟨t, flush1_2 t, ?_⟩
  rw [mem_band1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 96 ≤ (i 1).val ∧ (i 1).val < win1_2.index t (1 : Fin 2) * 96 + 96
    rw [e1]; omega

/-- THE SECOND REGION'S OUTPUT: the aggregate the region was entered with, scaled and cut. -/
theorem relu_array (c : Dev nD) :
    (dat1 V c).arrAt 2 cfg1.N = Cert.Gcn.reluScale (V c main_call0_v10) (V c main_arg1) :=
  (dat1 V c).arrAt_eq_of_cover 2 _ (fun t _ => relu_flushed V c t) bands_cover1

end Cert.KernelIdeal.Val

end
-- ==== Proof.Between.lean ====
/-
  Between the two regions the program gathers rows of the first region's output along the edges' sources and
  sums them into the edges' destinations: thirteen host operations whose last result, read through the chain, is
  the layer's aggregate of the first region's output array and the two index arrays.  With both regions' arrays
  read back, the result buffer of the whole run is the layer of the five launch arrays.
-/
import proofs.«108789_j36275293782548_1_alg».proof.Proof.Gen.KernelIdeal.Frame
import proofs.«108789_j36275293782548_1_alg».proof.Proof.KernelRun
import proofs.«108789_j36275293782548_1_alg».proof.Proof.Region0
import proofs.«108789_j36275293782548_1_alg».proof.Proof.Region1
import proofs.«108789_j36275293782548_1_alg».proof.Proof.Spec
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.Pipeline (Dat)

/-- The printed gather and scatter carry the layer's dimension numbers. -/
theorem gather_is_rows : gather_S50000x96_S800000x1_S800000x96_1_0_n_n_0_1_196 = Cert.Gcn.gatherRows := rfl
theorem scatter_is_rows : scatter_S50000x96_S800000x1_S800000x96_1_0_0_1 = Cert.Gcn.scatterRows := rfl

/-- After the host stretch, from any contents W, the aggregate's buffer holds the layer's aggregate of W's
    first-region output and of W's two index arrays. -/
theorem after_host_agg (W : Valuation τ sig (Elt Ideal)) :
    (StableHlo.after (hostOps1 (F := Ideal)) W (Proc.devRef .tc main_call0_v10) : FVec Ideal Cert.Gcn.SNode .f32)
      = Cert.Gcn.aggregate (W (Proc.devRef .tc main_call0_v0)) (W (Proc.devRef .tc main_arg3)) (W (Proc.devRef .tc main_arg4)) := by
  after_results
  rfl

variable (m : (ℓ : Loc nD τ sig) → Buf (Elt Ideal) ℓ) (ρ : Dev nD → PrngReg)

/-- The second region finds the normalisers as launched. -/
theorem norm_at_entry1 (c : Dev nD) :
    (V2 m ρ c main_arg1 : FVec Ideal Cert.Gcn.SNorm .f32) = m ((c : Thread nD τ).loc main_arg1) :=
  ((W3_arr m ρ c 1).trans (((dat1 (V2 m ρ) c).arrAt_in 1 rfl _).trans (A_eq1 (V2 m ρ) c 1))).symm.trans (W3_main_arg1 m ρ c)

/-- The second region finds the aggregate of the projected features of the launch arrays. -/
theorem agg_at_entry1 (c : Dev nD) :
    (V2 m ρ c main_call0_v10 : FVec Ideal Cert.Gcn.SNode .f32)
      = Cert.Gcn.aggregate (Cert.Gcn.proj (m ((c : Thread nD τ).loc main_arg0)) (m ((c : Thread nD τ).loc main_arg2)) (m ((c : Thread nD τ).loc main_arg1)))
          (m ((c : Thread nD τ).loc main_arg3)) (m ((c : Thread nD τ).loc main_arg4)) := by
  have hz : (W1 m ρ c (Proc.devRef .tc main_call0_v0) : FVec Ideal Cert.Gcn.SNode .f32)
      = Cert.Gcn.proj (m ((c : Thread nD τ).loc main_arg0)) (m ((c : Thread nD τ).loc main_arg2)) (m ((c : Thread nD τ).loc main_arg1)) :=
    (W1_arr m ρ c 3).trans (proj_array (V0 m ρ) c)
  have hs : (W1 m ρ c (Proc.devRef .tc main_arg3) : IVec Cert.Gcn.SEdge 32) = m ((c : Thread nD τ).loc main_arg3) :=
    W1_of_ne m ρ c main_arg3 (by decide)
  have hd : (W1 m ρ c (Proc.devRef .tc main_arg4) : IVec Cert.Gcn.SEdge 32) = m ((c : Thread nD τ).loc main_arg4) :=
    W1_of_ne m ρ c main_arg4 (by decide)
  refine (after_host_agg (W1 m ρ c)).trans ?_
  rw [hz, hs, hd]

/-- The array the second region's write-backs leave is the layer of the launch arrays. -/
theorem layer_array (c : Dev nD) :
    (dat1 (V2 m ρ) c).arrAt 2 cfg1.N
      = Cert.Gcn.layer (m ((c : Thread nD τ).loc main_arg0)) (m ((c : Thread nD τ).loc main_arg1)) (m ((c : Thread nD τ).loc main_arg2))
          (m ((c : Thread nD τ).loc main_arg3)) (m ((c : Thread nD τ).loc main_arg4)) :=
  (relu_array (V2 m ρ) c).trans (congrArg₂ Cert.Gcn.reluScale (agg_at_entry1 m ρ c) (norm_at_entry1 m ρ c))

/-- THE KERNEL'S RUN, READ: the result buffer ends at the layer of the launch arrays, the arguments as launched. -/
theorem run_layer : θ_run defs (onTc (τ := τ) (main (F := Ideal))) ⟨m, fun _ => 0, ρ⟩ (fun r => ∀ c : Dev nD,
      r.2.mem ((c.tc : Thread nD τ).loc main_v0)
        = Cert.Gcn.layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (layer_array m ρ c), (h c).2⟩) (run_named m ρ)

end Cert.KernelIdeal.Val

end
-- ==== Proof.RefValue.lean ====
/-
  The reference's result is the layer.  Its product of the features with the weights is, entry by entry, the sum
  over the 256 contraction coordinates; the normaliser column broadcast along the 96 output columns reads row r
  of the column; the gather and scatter-add carry the layer's dimension numbers; the closing maximum is against
  the zero splat.
-/
import proofs.«108789_j36275293782548_1_alg».proof.Proof.Gen.ReferenceIdeal.Read
import proofs.«108789_j36275293782548_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (h : FVec Ideal Cert.Gcn.SFeat .f32) (n : FVec Ideal Cert.Gcn.SNorm .f32) (w : FVec Ideal Cert.Gcn.SWeight .f32)
  (src dst : IVec Cert.Gcn.SEdge 32)

/-- The product's operand indices at output (r, c) and contraction coordinate k are (r, k) and (k, c). -/
theorem lidx_at (r : Fin 50000) (c : Fin 96) (k : Fin 256) : lidx_main_v0 (ix2 r c) k = ix2 r k :=
  funext fun a => Fin.ext (by match a with | ⟨0, _⟩ => rfl | ⟨1, _⟩ => rfl)
theorem ridx_at (r : Fin 50000) (c : Fin 96) (k : Fin 256) : ridx_main_v0 (ix2 r c) k = ix2 k c :=
  funext fun a => Fin.ext (by match a with | ⟨0, _⟩ => rfl | ⟨1, _⟩ => rfl)
/-- The broadcast column at (r, c) reads the column's row r. -/
theorem nidx_at (r : Fin 50000) (c : Fin 96) : idx_main_v1 (ix2 r c) = ix2 r (0 : Fin 1) :=
  funext fun a => Fin.ext (by match a with | ⟨0, _⟩ => rfl | ⟨1, _⟩ => rfl)
theorem nidx_at' (r : Fin 50000) (c : Fin 96) : idx_main_v13 (ix2 r c) = ix2 r (0 : Fin 1) :=
  funext fun a => Fin.ext (by match a with | ⟨0, _⟩ => rfl | ⟨1, _⟩ => rfl)

/-- The reference's scaled product is the layer's projected features. -/
theorem proj_eq : val_main_v2 (F := Ideal) h n w = Cert.Gcn.proj h w n := by
  funext i
  obtain ⟨r, c, rfl⟩ : ∃ (r : Fin 50000) (c : Fin 96), i = ix2 r c := ⟨i 0, i 1, eq_ix2 i⟩
  rw [val_main_v2_apply, val_main_v0_apply, val_main_v1_apply, Cert.Gcn.proj_apply, nidx_at]
  refine congrArg (· * n (ix2 r (0 : Fin 1))) (Finset.sum_congr rfl fun k _ => ?_)
  rw [lidx_at, ridx_at]

/-- The reference's gather and scatter-add of it are the layer's aggregate. -/
theorem agg_eq : val_main_v12 (F := Ideal) h n w src dst = Cert.Gcn.aggregate (val_main_v2 (F := Ideal) h n w) src dst := rfl

/-- THE REFERENCE'S RESULT is the layer of its five arguments. -/
theorem layer_eq : val_main_v15 (F := Ideal) h n w src dst = Cert.Gcn.layer h n w src dst := by
  funext i
  obtain ⟨r, c, rfl⟩ : ∃ (r : Fin 50000) (c : Fin 96), i = ix2 r c := ⟨i 0, i 1, eq_ix2 i⟩
  rw [val_main_v15_apply, val_main_v14_apply, val_main_v13_apply, val_main_call0_v0_apply, val_main_call0_cst_apply,
    nidx_at', agg_eq, proj_eq]
  rfl

end Cert.ReferenceIdeal.RefValue

end
-- ==== Proof.lean ====
/-
  One graph-convolution layer computed two ways, equal on the extended reals.

  The kernel projects the node features through the weights and scales each row by its node's normaliser in a
  first tiled region (ten bands of 5000 rows; the operands are narrowed to bf16 on the way into the matrix unit,
  which is the identity on the extended reals, and the accumulator starts at zero), gathers rows along the edges'
  sources and sums them into the edges' destinations with the host's gather and scatter-add, and in a second tiled
  region scales the aggregate by the normaliser again and cuts it below at zero.  The reference does all of it with
  host operations.  Both are the one function `Cert.Gcn.layer` of the five arrays: the two products are the same
  finite sums entry by entry, the gather and scatter-add are applied with the same dimension numbers to equal
  arrays, and the closing stage is pointwise.  No law used here needs the inputs to be finite.

  Nothing in the kernel had to be rewritten to be read on the extended reals, so the idealized kernel is the
  kernel's own text read there and the preservation claim has no conjunct.
-/
import proofs.«108789_j36275293782548_1_alg».proof.Defs
import proofs.«108789_j36275293782548_1_alg».proof.Proof.Gen.Kernel
import proofs.«108789_j36275293782548_1_alg».proof.Proof.Gen.Kernel.Skeleton
import proofs.«108789_j36275293782548_1_alg».proof.Proof.Gen.Kernel.Launch
import proofs.«108789_j36275293782548_1_alg».proof.Proof.Gen.Kernel.Points
import proofs.«108789_j36275293782548_1_alg».proof.Proof.Gen.Kernel.Frame
import proofs.«108789_j36275293782548_1_alg».proof.Proof.Gen.KernelIdeal
import proofs.«108789_j36275293782548_1_alg».proof.Proof.Gen.KernelIdeal.Skeleton
import proofs.«108789_j36275293782548_1_alg».proof.Proof.Gen.KernelIdeal.Launch
import proofs.«108789_j36275293782548_1_alg».proof.Proof.Gen.KernelIdeal.Points
import proofs.«108789_j36275293782548_1_alg».proof.Proof.Gen.KernelIdeal.Frame
import proofs.«108789_j36275293782548_1_alg».proof.Proof.Gen.ReferenceIdeal
import proofs.«108789_j36275293782548_1_alg».proof.Proof.Gen.Pre_finite_inputs
import proofs.«108789_j36275293782548_1_alg».proof.Proof.Gen.ReferenceIdeal.Run
import proofs.«108789_j36275293782548_1_alg».proof.Proof.Gen.ReferenceIdeal.Read
import proofs.«108789_j36275293782548_1_alg».proof.Proof.Between
import proofs.«108789_j36275293782548_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result at the layer of the launch arrays, which agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Val.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.layer_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
